-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x2048 : Shape := ⟨4, ![4, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x1x2048x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i32⟩
  | .hbm, ⟨4, _⟩ => ⟨S4x16x2048x64, .bf16⟩
  | .hbm, ⟨5, _⟩ => ⟨S4x16x2048x64, .bf16⟩
  | .hbm, ⟨6, _⟩ => ⟨S4x16x2048x64, .f32⟩
  | .hbm, ⟨7, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .bf16 = 32 ∨ (Rect.block (s := S4x16x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .bf16 = 32 ∨ (Rect.block (s := S4x16x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S4x1x2048x2048.size a
  hwx0_3 : ∀ i : grid0.Coords, EltTy.bits .i32 = 32 ∨ (Rect.block (s := S4x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i32⟩
  | .hbm, ⟨4, _⟩ => ⟨S4x16x2048x2048, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S_, .i32⟩
  | .hbm, ⟨10, _⟩ => ⟨S4x1x2048x2048, .i32⟩
  | .hbm, ⟨11, _⟩ => ⟨S4x1x2048x2048, .i1⟩
  | .hbm, ⟨12, _⟩ => ⟨S_, .f32⟩
  | .hbm, ⟨13, _⟩ => ⟨S4x16x2048x2048, .i1⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S_, .f32⟩
  | .hbm, ⟨19, _⟩ => ⟨S4x16x2048, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibSoftmaxRows.lean ====
/-
  The attention weights of one query row, on the extended reals, and the spellings that compute them.

  For a query row q (d features), keys k (n rows of d features) and a mask row (n integer flags), the masked scaled
  scores are sc(t) = neg where the flag is zero and (Σ_e q(e)·k(t,e))·c elsewhere; the weights are
  w(t) = exp(sc(t) − M) / Σ_u exp(sc(u) − M), M the fold of max over the scores from an initial value; and the
  attended value of a column v is Σ_t w(t)·v(t). A kernel body spells the row-wise part over an a×b block with a
  lane maximum, a column re-shape, a broadcast, exp, a lane sum and a divide (softmax_rows_apply). Scaling by one
  eighth is dividing by the square root of 64 on every extended real (scale_eq). A block with leading unit axes
  reads as the matrix under them (squeeze_apply, unsqueeze_apply). The reference's one-operand reduce with a maximum body
  along the last axis of a rank-4 array is the same fold of max (host_lastmax4_apply). Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«144681_j22196390986015_2_alg».proof.Proof.LibRowReductions

open scoped BigOperators

noncomputable section

namespace Cert.Lib.SoftmaxRows

open Idealize.ShloMosaic Idealize.ShloMosaic.ValueIdx

/-! ## The weights of one row -/

section Row
variable {n d : Nat}

/-- The masked, scaled scores of one query row against n keys. -/
def scores (c neg : EReal) (q : Fin d → EReal) (k : Fin n → Fin d → EReal) (mk : Fin n → BitVec 32) : Fin n → EReal :=
  fun t => Scalar.select (IntOp.cmpi .eq (mk t) 0#32) neg ((∑ e : Fin d, q e * k t e) * c)

/-- The largest score of a row, folded from an initial value. -/
def rowMax (init : EReal) (sc : Fin n → EReal) : EReal := (Finset.univ : Finset (Fin n)).fold max init sc

/-- The weights of a row: each score's exponential after the row's maximum is taken off, over their sum. -/
def weights (init : EReal) (sc : Fin n → EReal) : Fin n → EReal :=
  fun t => Ideal.div (Ideal.exp (sc t - rowMax init sc)) (∑ u : Fin n, Ideal.exp (sc u - rowMax init sc))

/-- A column of values weighted by a row's weights. -/
def attend (init : EReal) (sc : Fin n → EReal) (v : Fin n → EReal) : EReal := ∑ t : Fin n, weights init sc t * v t

/-- The fold of max from an initial value is at least that value, so taking the maximum with it again changes nothing. -/
theorem max_init_rowMax (init : EReal) (sc : Fin n → EReal) : max init (rowMax init sc) = rowMax init sc :=
  max_eq_right ((Finset.le_fold_max init).mpr (Or.inl le_rfl))

theorem weights_congr (init : EReal) {sc sc' : Fin n → EReal} (h : ∀ t, sc t = sc' t) {t t' : Fin n} (ht : t = t') :
    weights init sc t = weights init sc' t' := by
  rw [show sc = sc' from funext h, ht]

theorem attend_congr (init : EReal) {sc sc' : Fin n → EReal} (h : ∀ t, sc t = sc' t) {v v' : Fin n → EReal}
    (hv : ∀ t, v t = v' t) : attend init sc v = attend init sc' v' := by
  rw [show sc = sc' from funext h, show v = v' from funext hv]

theorem scores_congr (c neg : EReal) {q q' : Fin d → EReal} {k k' : Fin n → Fin d → EReal} {mk mk' : Fin n → BitVec 32}
    (hq : ∀ e, q e = q' e) (hk : ∀ t e, k t e = k' t e) (hm : ∀ t, mk t = mk' t) (t : Fin n) :
    scores c neg q k mk t = scores c neg q' k' mk' t := by
  rw [show q = q' from funext hq, show k = k' from funext fun t => funext (hk t), show mk = mk' from funext hm]

end Row

/-! ## One eighth, sixty-four and its square root -/

/-- The single-precision pattern 42800000 is 64. -/
theorem ofBits_64 : Ideal.ofBits .f32 0x42800000#32 = ((64 : ℝ) : EReal) := by
  simp [Ideal.ofBits, Ideal.ieee, -EReal.coe_mul]; norm_num

/-- The single-precision pattern 3E000000 is one eighth. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 * 8 by norm_num]
  exact Real.sqrt_mul_self (by norm_num)

/-- Multiplying by one eighth is dividing by the square root of 64, on every extended real (no finiteness asked:
    a quotient by a nonzero real IS the product with its reciprocal). -/
theorem scale_eq (x : EReal) :
    x * Ideal.ofBits .f32 0x3E000000#32 = Ideal.div x (Ideal.sqrt (Ideal.ofBits .f32 0x42800000#32)) := by
  rw [ofBits_64, sqrt_64, Ideal.div_coe (by norm_num : (8 : ℝ) ≠ 0), ofBits_eighth]

/-! ## Leading unit axes -/

section UnitAxes
variable {α : Type} {a b : Nat}

/-- A 1×1×a×b block viewed as an a×b matrix reads its entry (0, 0, p, q) at (p, q). -/
theorem squeeze_apply (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 0 0 p q) := by
  refine shapeCast_apply x h _ _ ?_
  rw [Shape.rowMajor_val_two, Shape.rowMajor_val_four]
  show (((0 : Nat) * 1 + 0) * a + p.val) * b + q.val = p.val * b + q.val
  simp only [Nat.zero_mul, Nat.zero_add, Nat.add_zero]

/-- An a×b matrix viewed as a 1×1×a×b block reads its entry (p, q) at (0, 0, p, q). -/
theorem unsqueeze_apply (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 0 0 p q) = x (ix2 p q) := by
  refine shapeCast_apply x h _ _ ?_
  rw [Shape.rowMajor_val_two, Shape.rowMajor_val_four]
  show p.val * b + q.val = (((0 : Nat) * 1 + 0) * a + p.val) * b + q.val
  simp only [Nat.zero_mul, Nat.zero_add, Nat.add_zero]

/-- An index of a 1×1×a×b block is (0, 0, p, q) for its last two coordinates. -/
theorem eq_ix4_unit (y : (⟨4, ![1, 1, a, b]⟩ : Shape).Idx) (p : Fin a) (q : Fin b) (hp : (y 2).val = p.val)
    (hq : (y 3).val = q.val) : y = ix4 0 0 p q := by
  funext ax; apply Fin.ext
  match ax with
  | ⟨0, _⟩ => have h0 : (y 0).val < 1 := (y 0).isLt; show (y 0).val = 0; omega
  | ⟨1, _⟩ => have h1 : (y 1).val < 1 := (y 1).isLt; show (y 1).val = 0; omega
  | ⟨2, _⟩ => exact hp
  | ⟨3, _⟩ => exact hq

end UnitAxes

/-! ## The row-wise part as a kernel body spells it -/

section Body
variable {a b : Nat}

/-- Over an a×b block V of scores: the lane maximum re-shaped to a column and broadcast, taken off, exponentiated,
    and divided by the lane sum re-shaped and broadcast the same way, is at (p, q) the weight q of row p. -/
theorem softmax_rows_apply (V : FVec Ideal ⟨2, ![a, b]⟩ .f32) (accm acc0 : BitVec 32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφm : FKind.Formats .f32) (haccm : accm = FKind.maximumf.neutral .f32 hφm)
    (hφ0 : FKind.Formats .f32) (hacc0 : acc0 = FKind.add.neutral .f32 hφ0) (p : Fin a) (q : Fin b) :
    divf
      (exp (subf V (broadcastTo ⟨2, ![a, b]⟩ (shapeCast ⟨2, ![a, 1]⟩ (multiReduction .maximumf [1] ⟨1, ![a]⟩ V accm hr hφm haccm) hc) hb)))
      (broadcastTo ⟨2, ![a, b]⟩ (shapeCast ⟨2, ![a, 1]⟩ (multiReduction .add [1] ⟨1, ![a]⟩
        (exp (subf V (broadcastTo ⟨2, ![a, b]⟩ (shapeCast ⟨2, ![a, 1]⟩ (multiReduction .maximumf [1] ⟨1, ![a]⟩ V accm hr hφm haccm) hc) hb)))
        acc0 hr hφ0 hacc0) hc) hb) (ix2 p q)
      = weights (Ideal.ofBits .f32 accm) (fun k => V (ix2 p k)) q := by
  have hmax : ∀ q' : Fin b, broadcastTo ⟨2, ![a, b]⟩ (shapeCast ⟨2, ![a, 1]⟩ (multiReduction .maximumf [1] ⟨1, ![a]⟩ V accm hr hφm haccm) hc) hb (ix2 p q')
      = rowMax (Ideal.ofBits .f32 accm) (fun k => V (ix2 p k)) := fun q' =>
    (Cert.Lib.RowReductions.broadcast_col_apply _ hb p q').trans
      ((Cert.Lib.RowReductions.shapeCast_col_apply _ hc p).trans
        (Cert.Lib.RowReductions.rowmax_apply V accm hr hφm haccm p))
  have hexp : ∀ q' : Fin b, exp (subf V (broadcastTo ⟨2, ![a, b]⟩ (shapeCast ⟨2, ![a, 1]⟩ (multiReduction .maximumf [1] ⟨1, ![a]⟩ V accm hr hφm haccm) hc) hb)) (ix2 p q')
      = Ideal.exp (V (ix2 p q') - rowMax (Ideal.ofBits .f32 accm) (fun k => V (ix2 p k))) := fun q' =>
    congrArg (fun z => Ideal.exp (V (ix2 p q') - z)) (hmax q')
  show Ideal.div (exp (subf V _) (ix2 p q)) (broadcastTo ⟨2, ![a, b]⟩ _ hb (ix2 p q)) = _
  rw [hexp q]
  refine congrArg (Ideal.div _) ?_
  refine (Cert.Lib.RowReductions.broadcast_col_apply _ hb p q).trans
    ((Cert.Lib.RowReductions.shapeCast_col_apply _ hc p).trans
      ((Cert.Lib.RowReductions.rowsum_apply _ acc0 hr hφ0 hacc0 p).trans ?_))
  exact Finset.sum_congr rfl fun u _ => hexp u

end Body

/-! ## The reference's maximum along the last axis of a rank-4 array -/

section HostMax
variable {a b c d : Nat}

/-- Index (p, q, r) of the reduced array with coordinate k put back on the last axis is (p, q, r, k). -/
theorem lift_last4 (h : (⟨4, ![a, b, c, d]⟩ : Shape).Reduces [3] ⟨3, ![a, b, c]⟩) (p : Fin a) (q : Fin b) (r : Fin c)
    (k : Fin ((⟨4, ![a, b, c, d]⟩ : Shape).size 3)) :
    h.lift (ix3 p q r) k = ix4 p q r (⟨k.val, k.isLt⟩ : Fin d) := by
  funext ax; apply Fin.ext
  match ax with
  | ⟨0, _⟩ => rfl
  | ⟨1, _⟩ => rfl
  | ⟨2, _⟩ => rfl
  | ⟨3, _⟩ => rfl

/-- The reference's one-operand reduce with a maximum body along the last axis of an a×b×c×d array is at (p, q, r)
    the fold of max, from the initial value's element, over the entries (p, q, r, k). -/
theorem host_lastmax4_apply {u : Shape} (x : (⟨4, ![a, b, c, d]⟩ : Shape).Idx → Ideal .f32) (init : u.Idx → Ideal .f32)
    (h' : (⟨4, ![a, b, c, d]⟩ : Shape).ReducesTo [3] ⟨3, ![a, b, c]⟩) (hu : 0 < u.numel) (p : Fin a) (q : Fin b) (r : Fin c) :
    Host.reduce (FloatOps.maximumf (F := Ideal) (φ := .f32)) x init h' hu (ix3 p q r)
      = rowMax (init (Shape.Idx.first hu)) (fun k : Fin d => x (ix4 p q r k)) := by
  have h : (⟨4, ![a, b, c, d]⟩ : Shape).Reduces [3] ⟨3, ![a, b, c]⟩ := ⟨h'.1, Nat.zero_lt_succ 2, h'.2⟩
  rw [Host.reduce_eq_fold_single FloatOps.maximumf x init h' h hu]
  have hf : (x ∘ h.lift (ix3 p q r)) = fun k : Fin d => x (ix4 p q r k) :=
    funext fun k => congrArg x (lift_last4 h p q r k)
  exact congrArg (fun f => Finset.fold max (init (Shape.Idx.first hu)) f (Finset.univ : Finset (Fin d))) hf

end HostMax

end Cert.Lib.SoftmaxRows

end
-- ==== Proof.AttentionSpec.lean ====
/-
  The attention this certificate is about, as two functions of whole arrays on the extended reals.

  For queries q, keys k and values v of shape [4, 16, 2048, 64] and an integer mask of shape [4, 1, 2048, 2048]:
  the scores of query row (b, h, s) are sc(t) = −10⁹ where mask(b, 0, s, t) is zero and (Σ_e q(b,h,s,e)·k(b,h,t,e))·⅛
  elsewhere; the weights array is w(b,h,s,t) = exp(sc(t) − max sc) / Σ_u exp(sc(u) − max sc), the maximum folded
  from −∞; and the output array is o(b,h,s,e) = Σ_t w(b,h,s,t)·v(b,h,t,e). Every entry depends on one query row,
  on the keys and values of its (b, h), and on one mask row.
-/
import proofs.«144681_j22196390986015_2_alg».proof.Proof.LibSoftmaxRows

open scoped BigOperators

noncomputable section

namespace Cert.Attention

open Idealize.ShloMosaic Idealize.ShloMosaic.ValueIdx Cert.Lib.SoftmaxRows

/-- The factor one eighth the scores are scaled by. -/
abbrev scale : EReal := Ideal.ofBits .f32 0x3E000000#32
/-- The value −10⁹ a masked score is replaced with. -/
abbrev fill : EReal := Ideal.ofBits .f32 0xCE6E6B28#32
/-- −∞, from which a row's maximum is folded. -/
abbrev floor : EReal := Ideal.ofBits .f32 0xFF800000#32

/-- The masked, scaled scores of query row (b, h, s) against the 2048 keys of (b, h). -/
def rowScores (q k : (⟨4, ![4, 16, 2048, 64]⟩ : Shape).Idx → EReal) (mask : (⟨4, ![4, 1, 2048, 2048]⟩ : Shape).Idx → BitVec 32)
    (b : Fin 4) (h : Fin 16) (s : Fin 2048) : Fin 2048 → EReal :=
  scores scale fill (fun e : Fin 64 => q (ix4 b h s e)) (fun (u : Fin 2048) (e : Fin 64) => k (ix4 b h u e))
    (fun u : Fin 2048 => mask (ix4 b 0 s u))

/-- The attention weights: the softmax of each query row's scores. -/
def attnWeights (q k : (⟨4, ![4, 16, 2048, 64]⟩ : Shape).Idx → EReal) (mask : (⟨4, ![4, 1, 2048, 2048]⟩ : Shape).Idx → BitVec 32) :
    (⟨4, ![4, 16, 2048, 2048]⟩ : Shape).Idx → EReal :=
  fun i => weights floor (rowScores q k mask (i 0) (i 1) (i 2)) (i 3)

/-- The attention output: each query row's weights applied to the value columns of its (b, h). -/
def attnOut (q k v : (⟨4, ![4, 16, 2048, 64]⟩ : Shape).Idx → EReal) (mask : (⟨4, ![4, 1, 2048, 2048]⟩ : Shape).Idx → BitVec 32) :
    (⟨4, ![4, 16, 2048, 64]⟩ : Shape).Idx → EReal :=
  fun i => attend floor (rowScores q k mask (i 0) (i 1) (i 2)) (fun u : Fin 2048 => v (ix4 (i 0) (i 1) u (i 3)))

theorem attnWeights_apply (q k : (⟨4, ![4, 16, 2048, 64]⟩ : Shape).Idx → EReal) (mask : (⟨4, ![4, 1, 2048, 2048]⟩ : Shape).Idx → BitVec 32)
    (b : Fin 4) (h : Fin 16) (s t : Fin 2048) :
    attnWeights q k mask (ix4 b h s t) = weights floor (rowScores q k mask b h s) t := rfl

theorem attnOut_apply (q k v : (⟨4, ![4, 16, 2048, 64]⟩ : Shape).Idx → EReal) (mask : (⟨4, ![4, 1, 2048, 2048]⟩ : Shape).Idx → BitVec 32)
    (b : Fin 4) (h : Fin 16) (s : Fin 2048) (e : Fin 64) :
    attnOut q k v mask (ix4 b h s e) = attend floor (rowScores q k mask b h s) (fun u : Fin 2048 => v (ix4 b h u e)) := rfl

/-- The weights array at an index whose coordinates are (b, h, s, t). -/
theorem attnWeights_at (q k : (⟨4, ![4, 16, 2048, 64]⟩ : Shape).Idx → EReal) (mask : (⟨4, ![4, 1, 2048, 2048]⟩ : Shape).Idx → BitVec 32)
    (i : (⟨4, ![4, 16, 2048, 2048]⟩ : Shape).Idx) (b : Fin 4) (h : Fin 16) (s t : Fin 2048)
    (h0 : (i 0).val = b.val) (h1 : (i 1).val = h.val) (h2 : (i 2).val = s.val) (h3 : (i 3).val = t.val) :
    attnWeights q k mask i = weights floor (rowScores q k mask b h s) t := by
  rw [show i = ix4 b h s t from funext fun a => Fin.ext (by
    match a with | ⟨0, _⟩ => exact h0 | ⟨1, _⟩ => exact h1 | ⟨2, _⟩ => exact h2 | ⟨3, _⟩ => exact h3)]
  rfl

/-- The output array at an index whose coordinates are (b, h, s, e). -/
theorem attnOut_at (q k v : (⟨4, ![4, 16, 2048, 64]⟩ : Shape).Idx → EReal) (mask : (⟨4, ![4, 1, 2048, 2048]⟩ : Shape).Idx → BitVec 32)
    (i : (⟨4, ![4, 16, 2048, 64]⟩ : Shape).Idx) (b : Fin 4) (h : Fin 16) (s : Fin 2048) (e : Fin 64)
    (h0 : (i 0).val = b.val) (h1 : (i 1).val = h.val) (h2 : (i 2).val = s.val) (h3 : (i 3).val = e.val) :
    attnOut q k v mask i = attend floor (rowScores q k mask b h s) (fun u : Fin 2048 => v (ix4 b h u e)) := by
  rw [show i = ix4 b h s e from funext fun a => Fin.ext (by
    match a with | ⟨0, _⟩ => exact h0 | ⟨1, _⟩ => exact h1 | ⟨2, _⟩ => exact h2 | ⟨3, _⟩ => exact h3)]
  rfl

end Cert.Attention

end
-- ==== Proof.BlockValue.lean ====
/-
  What the kernel body leaves in its two output blocks, entry by entry, on the extended reals.

  At a grid point the body holds a 512-row block of queries, the 2048 keys and values of one (b, h) and a 512×2048
  block of the mask. The weights block is, at (r, t), the softmax weight t of the scores of query row r against the
  keys under mask row r; the output block is, at (r, e), those weights applied to column e of the values. Rounding to
  a narrower float format is the identity on the extended reals, and the products accumulate into zeros.
-/
import proofs.«144681_j22196390986015_2_alg».proof.Proof.Gen.KernelIdeal.Skeleton
import proofs.«144681_j22196390986015_2_alg».proof.Proof.LibBlockReads
import proofs.«144681_j22196390986015_2_alg».proof.Proof.LibSoftmaxRows
import proofs.«144681_j22196390986015_2_alg».proof.Proof.AttentionSpec

open scoped BigOperators

noncomputable section

namespace Cert.KernelIdeal.Hand

open Cert.KernelIdeal Cert.KernelIdeal.Gen
open Idealize.ShloMosaic Idealize.ShloMosaic.ValueIdx
open Cert.Lib.SoftmaxRows Cert.Lib.BlockReads Cert.Attention

/-- The scores of query row r of a block against the keys of the block, under row r of the mask block. -/
abbrev blockScores (x0 : Vec Ideal S1x1x512x64 .f32) (x1 : Vec Ideal S1x1x2048x64 .bf16) (x3 : Vec Ideal S1x1x512x2048 .i32)
    (r : Fin 512) : Fin 2048 → EReal :=
  scores scale fill (fun e : Fin 64 => x0 (ix4 0 0 r e)) (fun (u : Fin 2048) (e : Fin 64) => x1 (ix4 0 0 u e))
    (fun u : Fin 2048 => x3 (ix4 0 0 r u))

/-- The weights the body computes from its loaded blocks are, at (r, t), weight t of row r's scores. -/
theorem weights_block (x0 : Vec Ideal S1x1x512x64 .f32) (x1 : Vec Ideal S1x1x2048x64 .bf16) (x3 : Vec Ideal S1x1x512x2048 .i32)
    (r : Fin 512) (t : Fin 2048) :
    k0_pay3 (F := Ideal) x0 x1 x3 (ix2 r t) = weights floor (blockScores x0 x1 x3 r) t := by
  unfold k0_pay3
  dsimp only
  refine (softmax_rows_apply _ 0xFF800000#32 0x00000000#32 reduces_S512x2048_S512 shapeCasts_S512_S512x1
    broadcasts_S512x1_S512x2048 (.inl rfl) rfl (.inl rfl) rfl r t).trans ?_
  refine weights_congr _ (fun u => ?_) rfl
  have e1 : shapeCast S512x2048 x3 shapeCasts_S1x1x512x2048_S512x2048 (ix2 r u) = x3 (ix4 0 0 r u) :=
    squeeze_apply x3 _ r u
  have e2 : matmul (F := Ideal) dot_S512x64_S2048x64_S512x2048_1_1_0_0_n_n none
        (truncf .bf16 (shapeCast S512x64 x0 shapeCasts_S1x1x512x64_S512x64 : FVec Ideal S512x64 .f32) bitsLt_bf16_f32)
        (shapeCast S2048x64 x1 shapeCasts_S1x1x2048x64_S2048x64 : FVec Ideal S2048x64 .bf16) (constant S512x2048 .f32 0x00000000#32) (ix2 r u)
      = ∑ e : Fin 64, (x0 (ix4 0 0 r e) : EReal) * (x1 (ix4 0 0 u e) : EReal) := by
    refine (matmul_zero_cols_apply dot_S512x64_S2048x64_S512x2048_1_1_0_0_n_n rfl rfl rfl rfl rfl rfl none
      (truncf .bf16 (shapeCast S512x64 x0 shapeCasts_S1x1x512x64_S512x64 : FVec Ideal S512x64 .f32) bitsLt_bf16_f32)
      (shapeCast S2048x64 x1 shapeCasts_S1x1x2048x64_S2048x64 : FVec Ideal S2048x64 .bf16) r u).trans ?_
    refine Finset.sum_congr rfl fun e _ => ?_
    show (shapeCast S512x64 x0 shapeCasts_S1x1x512x64_S512x64 (ix2 r e) : EReal)
      * (shapeCast S2048x64 x1 shapeCasts_S1x1x2048x64_S2048x64 (ix2 u e) : EReal) = _
    rw [squeeze_apply x0 _ r e, squeeze_apply x1 _ u e]
  show Scalar.select (IntOp.cmpi .eq (shapeCast S512x2048 x3 shapeCasts_S1x1x512x2048_S512x2048 (ix2 r u)) 0#32) fill
      ((matmul (F := Ideal) dot_S512x64_S2048x64_S512x2048_1_1_0_0_n_n none
        (truncf .bf16 (shapeCast S512x64 x0 shapeCasts_S1x1x512x64_S512x64 : FVec Ideal S512x64 .f32) bitsLt_bf16_f32)
        (shapeCast S2048x64 x1 shapeCasts_S1x1x2048x64_S2048x64 : FVec Ideal S2048x64 .bf16) (constant S512x2048 .f32 0x00000000#32) (ix2 r u) : EReal) * scale) = _
  rw [e1, e2]
  rfl

/-- The weights block the body stores is, at (0, 0, r, t), weight t of row r's scores. -/
theorem weights_store (x0 : Vec Ideal S1x1x512x64 .f32) (x1 : Vec Ideal S1x1x2048x64 .bf16) (x3 : Vec Ideal S1x1x512x2048 .i32)
    (r : Fin 512) (t : Fin 2048) :
    k0_pay4 (F := Ideal) x0 x1 x3 (ix4 0 0 r t) = weights floor (blockScores x0 x1 x3 r) t :=
  (unsqueeze_apply (k0_pay3 (F := Ideal) x0 x1 x3) shapeCasts_S512x2048_S1x1x512x2048 r t).trans (weights_block x0 x1 x3 r t)

/-- The output block the body stores is, at (0, 0, r, e), row r's weights applied to column e of the values. -/
theorem output_store (x0 : Vec Ideal S1x1x512x64 .f32) (x1 x2 : Vec Ideal S1x1x2048x64 .bf16) (x3 : Vec Ideal S1x1x512x2048 .i32)
    (r : Fin 512) (e : Fin 64) :
    k0_pay1 (F := Ideal) (k0_pay2 x2) (k0_pay5 x0 x1 x3) (constant S512x64 .f32 0x00000000#32) (ix4 0 0 r e)
      = attend floor (blockScores x0 x1 x3 r) (fun u : Fin 2048 => x2 (ix4 0 0 u e)) := by
  unfold k0_pay1 k0_pay2 k0_pay5
  dsimp only
  refine (unsqueeze_apply _ shapeCasts_S512x64_S1x1x512x64 r e).trans ?_
  refine (matmul_zero_rows_apply dot_S512x2048_S2048x64_S512x64_1_0_0_1_n_n rfl rfl rfl rfl rfl rfl none
    (truncf .bf16 (k0_pay3 (F := Ideal) x0 x1 x3) bitsLt_bf16_f32)
    (shapeCast S2048x64 x2 shapeCasts_S1x1x2048x64_S2048x64 : FVec Ideal S2048x64 .bf16) r e).trans ?_
  refine Finset.sum_congr rfl fun u _ => ?_
  show (k0_pay3 (F := Ideal) x0 x1 x3 (ix2 r u) : EReal)
    * (shapeCast S2048x64 x2 shapeCasts_S1x1x2048x64_S2048x64 (ix2 u e) : EReal) = _
  rw [weights_block x0 x1 x3 r u, squeeze_apply x2 _ u e]

end Cert.KernelIdeal.Hand

end
-- ==== Proof.FinalArrays.lean ====
/-
  The kernel's two result arrays after the run are the attention output and the attention weights of the arguments.

  The grid has one point per (b, query tile, h). At a point the query block is rows 512·tile … 512·tile + 511 of
  (b, h), the key and value blocks are all 2048 rows of (b, h) — read from copies of the arguments whose change of
  float format is the identity on the extended reals —, the mask block is the same rows of (b, 0), and the two output
  blocks sit at the query block's place. So what a point writes back is its block of the whole-array functions, and the
  blocks of all points tile both arrays.
-/
import proofs.«144681_j22196390986015_2_alg».proof.Proof.Gen.KernelIdeal.Value
import proofs.«144681_j22196390986015_2_alg».proof.Proof.BlockValue
import Idealize.ShloMosaic.Lib.Pipeline.Value
import Idealize.ShloMosaic.Lib.StableHlo.Run
import Idealize.ShloMosaic.Lib.Tactic

open scoped BigOperators

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Lib.SoftmaxRows Cert.Attention

variable (m : (ℓ : Loc nD τ sig) → Buf (Elt Ideal) ℓ) (ρ : Dev nD → PrngReg)

theorem hz4 : (![0, 0, 0, 0] : Fin 4 → Nat) = fun _ => 0 := funext fun a => by fin_cases a <;> rfl

/-! ## What the body leaves in the two output blocks, from the input blocks -/

/-- The weights block after the body, at a block index whose last two coordinates are (r, u). -/
theorem out5_apply (x0 : Vec Ideal S1x1x512x64 .f32) (x1 x2 : Vec Ideal S1x1x2048x64 .bf16) (x3 : Vec Ideal S1x1x512x2048 .i32)
    (y : S1x1x512x2048.Idx) (r : Fin 512) (u : Fin 2048) (hr : (y 2).val = r.val) (hu : (y 3).val = u.val) :
    out0_5 (F := Ideal) x0 x1 x2 x3 y = weights floor (blockScores x0 x1 x3 r) u := by
  rw [eq_ix4_unit y r u hr hu]
  unfold out0_5
  rw [View.canon_unit_zero hz4]
  simp only [View.ld_unit_zero (S := S1x1x512x64) hz4, View.ld_unit_zero (S := S1x1x2048x64) hz4,
    View.ld_unit_zero (S := S1x1x512x2048) hz4]
  exact weights_store x0 x1 x3 r u

/-- The output block after the body, at a block index whose last two coordinates are (r, e). -/
theorem out4_apply (x0 : Vec Ideal S1x1x512x64 .f32) (x1 x2 : Vec Ideal S1x1x2048x64 .bf16) (x3 : Vec Ideal S1x1x512x2048 .i32)
    (y : S1x1x512x64.Idx) (r : Fin 512) (e : Fin 64) (hr : (y 2).val = r.val) (he : (y 3).val = e.val) :
    out0_4 (F := Ideal) x0 x1 x2 x3 y = attend floor (blockScores x0 x1 x3 r) (fun u : Fin 2048 => x2 (ix4 0 0 u e)) := by
  rw [eq_ix4_unit y r e hr he]
  unfold out0_4
  rw [View.canon_unit_zero hz4]
  simp only [View.ld_unit_zero (S := S1x1x512x64) hz4, View.ld_unit_zero (S := S1x1x2048x64) hz4,
    View.ld_unit_zero (S := S1x1x512x2048) hz4]
  exact output_store x0 x1 x2 x3 r e

/-! ## The arrays the region finds -/

/-- The key array the region reads is the key argument: the copy's change of format is the identity. -/
theorem V_keys (c : Dev nD) (i : S4x16x2048x64.Idx) :
    (V m c main_v0 : S4x16x2048x64.Idx → EReal) i = (m ((c : Thread nD τ).loc main_arg1) : S4x16x2048x64.Idx → EReal) i := by
  have e : (V m c main_v0 : S4x16x2048x64.Idx → EReal)
      = truncf (F := Ideal) .bf16 (m ((c : Thread nD τ).loc main_arg1) : S4x16x2048x64.Idx → EReal) bitsLt_bf16_f32 := by
    dsimp only [Gen.V, Gen.hostOps0]; after_results
  rw [e]; rfl

/-- The value array the region reads is the value argument. -/
theorem V_values (c : Dev nD) (i : S4x16x2048x64.Idx) :
    (V m c main_v1 : S4x16x2048x64.Idx → EReal) i = (m ((c : Thread nD τ).loc main_arg2) : S4x16x2048x64.Idx → EReal) i := by
  have e : (V m c main_v1 : S4x16x2048x64.Idx → EReal)
      = truncf (F := Ideal) .bf16 (m ((c : Thread nD τ).loc main_arg2) : S4x16x2048x64.Idx → EReal) bitsLt_bf16_f32 := by
    dsimp only [Gen.V, Gen.hostOps0]; after_results
  rw [e]; rfl

/-! ## Where each window's block sits at a point -/

/-- The printed index maps, decided over the 256 points: the query and both output blocks sit at (b, h, tile, 0), the
    key and value blocks at (b, h, 0, 0), the mask block at (b, 0, tile, 0), with b < 4, h < 16, tile < 4. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) < 4 ∧ win0_5.index t (1 : Fin 4) < 16 ∧ win0_5.index t (2 : Fin 4) < 4
      ∧ win0_5.index t (3 : Fin 4) = 0) :=
  (by decide +kernel : ∀ t : Fin grid0.N, _)

/-- Every (b, h, tile) is some point's. -/
theorem idx_onto : ∀ (b : Fin 4) (h : Fin 16) (q : Fin 4), ∃ t : Fin cfg0.N,
    win0_5.index t = ![b.val, h.val, q.val, 0] ∧ win0_4.index t = ![b.val, h.val, q.val, 0] :=
  (by decide +kernel : ∀ (b : Fin 4) (h : Fin 16) (q : Fin 4), ∃ t : Fin grid0.N,
    win0_5.index t = ![b.val, h.val, q.val, 0] ∧ win0_4.index t = ![b.val, h.val, q.val, 0])

/-! ## The input blocks as rows of the arguments -/

/-- Row r of the query block at point t is row 512·tile + r of the query argument at the point's (b, h). -/
theorem read_q (c : Dev nD) (t : Fin cfg0.N) (r : Fin 512) (e : Fin 64) (B : Fin 4) (H : Fin 16) (S : Fin 2048)
    (hB : B.val = win0_5.index t (0 : Fin 4)) (hH : H.val = win0_5.index t (1 : Fin 4))
    (hS : S.val = win0_5.index t (2 : Fin 4) * 512 + r.val) :
    (iblk m c 0 t : Vec Ideal S1x1x512x64 .f32) (ix4 0 0 r e)
      = (m ((c : Thread nD τ).loc main_arg0) : S4x16x2048x64.Idx → EReal) (ix4 B H S e) := by
  obtain ⟨⟨a0, a1, a2, a3⟩, -⟩ := idx_facts t
  unfold iblk
  rw [View.read_apply]
  show V m c main_arg0 _ = _
  rw [V_main_arg0 m c]
  refine congrArg _ ?_
  funext a; apply Fin.ext
  match a with
  | ⟨0, _⟩ => show win0_0.index t (0 : Fin 4) * 1 + 1 * 0 = B.val; omega
  | ⟨1, _⟩ => show win0_0.index t (1 : Fin 4) * 1 + 1 * 0 = H.val; omega
  | ⟨2, _⟩ => show win0_0.index t (2 : Fin 4) * 512 + 1 * r.val = S.val; omega
  | ⟨3, _⟩ => show win0_0.index t (3 : Fin 4) * 64 + 1 * e.val = e.val; omega

/-- Row w of the key block at point t is row w of the key argument at the point's (b, h). -/
theorem read_k (c : Dev nD) (t : Fin cfg0.N) (w : Fin 2048) (e : Fin 64) (B : Fin 4) (H : Fin 16)
    (hB : B.val = win0_5.index t (0 : Fin 4)) (hH : H.val = win0_5.index t (1 : Fin 4)) :
    (iblk m c 1 t : Vec Ideal S1x1x2048x64 .bf16) (ix4 0 0 w e)
      = (m ((c : Thread nD τ).loc main_arg1) : S4x16x2048x64.Idx → EReal) (ix4 B H w e) := by
  obtain ⟨-, ⟨a0, a1, a2, a3⟩, -⟩ := idx_facts t
  unfold iblk
  rw [View.read_apply]
  show V m c main_v0 _ = _
  refine (V_keys m c _).trans ?_
  refine congrArg _ ?_
  funext a; apply Fin.ext
  match a with
  | ⟨0, _⟩ => show win0_1.index t (0 : Fin 4) * 1 + 1 * 0 = B.val; omega
  | ⟨1, _⟩ => show win0_1.index t (1 : Fin 4) * 1 + 1 * 0 = H.val; omega
  | ⟨2, _⟩ => show win0_1.index t (2 : Fin 4) * 2048 + 1 * w.val = w.val; omega
  | ⟨3, _⟩ => show win0_1.index t (3 : Fin 4) * 64 + 1 * e.val = e.val; omega

/-- Row w of the value block at point t is row w of the value argument at the point's (b, h). -/
theorem read_v (c : Dev nD) (t : Fin cfg0.N) (w : Fin 2048) (e : Fin 64) (B : Fin 4) (H : Fin 16)
    (hB : B.val = win0_5.index t (0 : Fin 4)) (hH : H.val = win0_5.index t (1 : Fin 4)) :
    (iblk m c 2 t : Vec Ideal S1x1x2048x64 .bf16) (ix4 0 0 w e)
      = (m ((c : Thread nD τ).loc main_arg2) : S4x16x2048x64.Idx → EReal) (ix4 B H w e) := by
  obtain ⟨-, -, ⟨a0, a1, a2, a3⟩, -⟩ := idx_facts t
  unfold iblk
  rw [View.read_apply]
  show V m c main_v1 _ = _
  refine (V_values m c _).trans ?_
  refine congrArg _ ?_
  funext a; apply Fin.ext
  match a with
  | ⟨0, _⟩ => show win0_2.index t (0 : Fin 4) * 1 + 1 * 0 = B.val; omega
  | ⟨1, _⟩ => show win0_2.index t (1 : Fin 4) * 1 + 1 * 0 = H.val; omega
  | ⟨2, _⟩ => show win0_2.index t (2 : Fin 4) * 2048 + 1 * w.val = w.val; omega
  | ⟨3, _⟩ => show win0_2.index t (3 : Fin 4) * 64 + 1 * e.val = e.val; omega

/-- Row r of the mask block at point t is row 512·tile + r of the mask argument at the point's b. -/
theorem read_mask (c : Dev nD) (t : Fin cfg0.N) (r : Fin 512) (w : Fin 2048) (B : Fin 4) (S : Fin 2048)
    (hB : B.val = win0_5.index t (0 : Fin 4)) (hS : S.val = win0_5.index t (2 : Fin 4) * 512 + r.val) :
    (iblk m c 3 t : Vec Ideal S1x1x512x2048 .i32) (ix4 0 0 r w)
      = (m ((c : Thread nD τ).loc main_arg3) : S4x1x2048x2048.Idx → BitVec 32) (ix4 B 0 S w) := by
  obtain ⟨-, -, -, ⟨a0, a1, a2, a3⟩, -⟩ := idx_facts t
  unfold iblk
  rw [View.read_apply]
  show V m c main_arg3 _ = _
  rw [V_main_arg3 m c]
  refine congrArg _ ?_
  funext a; apply Fin.ext
  match a with
  | ⟨0, _⟩ => show win0_3.index t (0 : Fin 4) * 1 + 1 * 0 = B.val; omega
  | ⟨1, _⟩ => show win0_3.index t (1 : Fin 4) * 1 + 1 * 0 = 0; omega
  | ⟨2, _⟩ => show win0_3.index t (2 : Fin 4) * 512 + 1 * r.val = S.val; omega
  | ⟨3, _⟩ => show win0_3.index t (3 : Fin 4) * 2048 + 1 * w.val = w.val; omega

/-- The scores of row r of the blocks at point t are the scores of query row (b, h, 512·tile + r) of the arguments. -/
theorem scores_at (c : Dev nD) (t : Fin cfg0.N) (r : Fin 512) (B : Fin 4) (H : Fin 16) (S : Fin 2048)
    (hB : B.val = win0_5.index t (0 : Fin 4)) (hH : H.val = win0_5.index t (1 : Fin 4))
    (hS : S.val = win0_5.index t (2 : Fin 4) * 512 + r.val) (u : Fin 2048) :
    blockScores (iblk m c 0 t) (iblk m c 1 t) (iblk m c 3 t) r u
      = rowScores (m ((c : Thread nD τ).loc main_arg0)) (m ((c : Thread nD τ).loc main_arg1)) (m ((c : Thread nD τ).loc main_arg3)) B H S u := by
  unfold rowScores
  exact scores_congr scale fill (fun e => read_q m c t r e B H S hB hH hS)
    (fun w e => read_k m c t w e B H hB hH) (fun w => read_mask m c t r w B S hB hS) u

/-! ## What each point writes back -/

/-- Point t writes back its block of the attention weights of the arguments. -/
theorem flushed5_eq (c : Dev nD) (t : Fin cfg0.N) :
    (dats m 0 c).flushed 5 t = ((cfg0.win 5).blk t).view.read (Elt Ideal)
      (attnWeights (m ((c : Thread nD τ).loc main_arg0)) (m ((c : Thread nD τ).loc main_arg1)) (m ((c : Thread nD τ).loc main_arg3))) := by
  rw [Value.flushed5]
  obtain ⟨-, -, -, -, -, b0, b1, b2, b3⟩ := idx_facts t
  funext j
  have hj0 : (j 0).val < 1 := (j 0).isLt
  have hj1 : (j 1).val < 1 := (j 1).isLt
  have hj2 : (j 2).val < 512 := (j 2).isLt
  have hj3 : (j 3).val < 2048 := (j 3).isLt
  show out0_5 (iblk m c 0 t) (iblk m c 1 t) (iblk m c 2 t) (iblk m c 3 t) j
    = attnWeights _ _ _ (((cfg0.win 5).blk t).view.emb j)
  refine (out5_apply (iblk m c 0 t) (iblk m c 1 t) (iblk m c 2 t) (iblk m c 3 t) j ⟨(j 2).val, hj2⟩ ⟨(j 3).val, hj3⟩ rfl rfl).trans ?_
  refine Eq.trans ?_ (attnWeights_at _ _ _ (((cfg0.win 5).blk t).view.emb j) ⟨win0_5.index t (0 : Fin 4), b0⟩ ⟨win0_5.index t (1 : Fin 4), b1⟩
    ⟨win0_5.index t (2 : Fin 4) * 512 + (j 2).val, by omega⟩ ⟨(j 3).val, hj3⟩ ?_ ?_ ?_ ?_).symm
  · exact weights_congr floor (fun u => scores_at m c t ⟨(j 2).val, hj2⟩ _ _ _ rfl rfl rfl u) rfl
  · show win0_5.index t (0 : Fin 4) * 1 + 1 * (j 0).val = win0_5.index t (0 : Fin 4); omega
  · show win0_5.index t (1 : Fin 4) * 1 + 1 * (j 1).val = win0_5.index t (1 : Fin 4); omega
  · show win0_5.index t (2 : Fin 4) * 512 + 1 * (j 2).val = win0_5.index t (2 : Fin 4) * 512 + (j 2).val; omega
  · show win0_5.index t (3 : Fin 4) * 2048 + 1 * (j 3).val = (j 3).val; omega

/-- Point t writes back its block of the attention output of the arguments. -/
theorem flushed4_eq (c : Dev nD) (t : Fin cfg0.N) :
    (dats m 0 c).flushed 4 t = ((cfg0.win 4).blk t).view.read (Elt Ideal)
      (attnOut (m ((c : Thread nD τ).loc main_arg0)) (m ((c : Thread nD τ).loc main_arg1)) (m ((c : Thread nD τ).loc main_arg2)) (m ((c : Thread nD τ).loc main_arg3))) := by
  rw [Value.flushed4]
  obtain ⟨-, -, -, -, ⟨d0, d1, d2, d3⟩, b0, b1, b2, b3⟩ := idx_facts t
  funext j
  have hj0 : (j 0).val < 1 := (j 0).isLt
  have hj1 : (j 1).val < 1 := (j 1).isLt
  have hj2 : (j 2).val < 512 := (j 2).isLt
  have hj3 : (j 3).val < 64 := (j 3).isLt
  show out0_4 (iblk m c 0 t) (iblk m c 1 t) (iblk m c 2 t) (iblk m c 3 t) j
    = attnOut _ _ _ _ (((cfg0.win 4).blk t).view.emb j)
  refine (out4_apply (iblk m c 0 t) (iblk m c 1 t) (iblk m c 2 t) (iblk m c 3 t) j ⟨(j 2).val, hj2⟩ ⟨(j 3).val, hj3⟩ rfl rfl).trans ?_
  refine Eq.trans ?_ (attnOut_at _ _ _ _ (((cfg0.win 4).blk t).view.emb j) ⟨win0_5.index t (0 : Fin 4), b0⟩ ⟨win0_5.index t (1 : Fin 4), b1⟩
    ⟨win0_5.index t (2 : Fin 4) * 512 + (j 2).val, by omega⟩ ⟨(j 3).val, hj3⟩ ?_ ?_ ?_ ?_).symm
  · exact attend_congr floor (fun u => scores_at m c t ⟨(j 2).val, hj2⟩ _ _ _ rfl rfl rfl u)
      (fun w => read_v m c t w ⟨(j 3).val, hj3⟩ _ _ rfl rfl)
  · show win0_4.index t (0 : Fin 4) * 1 + 1 * (j 0).val = win0_5.index t (0 : Fin 4); omega
  · show win0_4.index t (1 : Fin 4) * 1 + 1 * (j 1).val = win0_5.index t (1 : Fin 4); omega
  · show win0_4.index t (2 : Fin 4) * 512 + 1 * (j 2).val = win0_5.index t (2 : Fin 4) * 512 + (j 2).val; omega
  · show win0_4.index t (3 : Fin 4) * 64 + 1 * (j 3).val = (j 3).val; omega

/-! ## The blocks tile the arrays -/

/-- An index of the weights array is in point t's block iff each coordinate is in the block's range on its axis. -/
theorem mem_blk5 (t : Fin cfg0.N) (i : S4x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v2_1).slice (win0_5.rect t)).set ↔ _
  rw [View.set_slice_whole, Rect.mem_set_unit]
  exact Iff.rfl

/-- An index of the output array is in point t's block iff each coordinate is in the block's range on its axis. -/
theorem mem_blk4 (t : Fin cfg0.N) (i : S4x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v2_0).slice (win0_4.rect t)).set ↔ _
  rw [View.set_slice_whole, Rect.mem_set_unit]
  exact Iff.rfl

/-- Every index of the weights array is in the block of the point of its (b, h, row / 512). -/
theorem cover5 (i : S4x16x2048x2048.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 2048 := (i 3).isLt
  obtain ⟨t, ht, -⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output array is in the block of the point of its (b, h, row / 512). -/
theorem cover4 (i : S4x16x2048x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, -, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run, and the run -/

/-- The weights array ends holding the attention weights of the arguments. -/
theorem final5 (c : Dev nD) : (dats m 0 c).arrAt 5 cfg0.N
    = attnWeights (m ((c : Thread nD τ).loc main_arg0)) (m ((c : Thread nD τ).loc main_arg1)) (m ((c : Thread nD τ).loc main_arg3)) :=
  (dats m 0 c).arrAt_eq_of_cover 5 _ (fun t _ => flushed5_eq m c t) cover5

/-- The output array ends holding the attention output of the arguments. -/
theorem final4 (c : Dev nD) : (dats m 0 c).arrAt 4 cfg0.N
    = attnOut (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c t) cover4

/-- The kernel's run: both result arrays at their whole-array functions of the arguments, the arguments unchanged. -/
theorem run : θ_run defs (onTc (τ := τ) (main (F := Ideal))) ⟨m, fun _ => 0, ρ⟩ fun r => ∀ c : Dev nD,
      r.2.mem ((c : Thread nD τ).loc main_v2_0) = attnOut (m ((c : Thread nD τ).loc main_arg0)) (m ((c : Thread nD τ).loc main_arg1)) (m ((c : Thread nD τ).loc main_arg2)) (m ((c : Thread nD τ).loc main_arg3))
      ∧ r.2.mem ((c : Thread nD τ).loc main_v2_1) = attnWeights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Hand

end
-- ==== Proof.ReferenceValue.lean ====
/-
  The reference's two results are the attention weights and the attention output, entry by entry.

  The reference divides the products q·k by the square root of 64 where the kernel multiplies by one eighth: one
  function on the extended reals. It takes the maximum of −∞ with each row's maximum, which is that maximum. Its
  exponential, sum and quotient are the same functions as a kernel's. So its weights array is attnWeights and its
  output array attnOut of the argument arrays.
-/
import proofs.«144681_j22196390986015_2_alg».proof.Proof.Gen.ReferenceIdeal.Read
import proofs.«144681_j22196390986015_2_alg».proof.Proof.LibSoftmaxRows
import proofs.«144681_j22196390986015_2_alg».proof.Proof.AttentionSpec

open scoped BigOperators

noncomputable section

namespace Cert.ReferenceIdeal.Hand

open Cert.ReferenceIdeal Cert.ReferenceIdeal.Gen Cert.ReferenceIdeal.Read
open Idealize.ShloMosaic Idealize.ShloMosaic.ValueIdx
open Cert.Lib.SoftmaxRows Cert.Attention

variable (x0 x1 x2 : (⟨S4x16x2048x64, .f32⟩ : BufTy).Contents (Elt Ideal)) (x3 : (⟨S4x1x2048x2048, .i32⟩ : BufTy).Contents (Elt Ideal))

/-- The masked scores the reference selects are, at (b, h, s, t), score t of query row (b, h, s). -/
theorem masked_ref (b : Fin 4) (h : Fin 16) (s t : Fin 2048) :
    val_main_v6 (F := Ideal) x0 x1 x3 (ix4 b h s t) = rowScores x0 x1 x3 b h s t := by
  have i0 : idx_main_call0_v0 (ix4 b h s t) = ix4 b 0 s t := funext fun a => Fin.ext (by
    match a with | ⟨0, _⟩ => rfl | ⟨1, _⟩ => rfl | ⟨2, _⟩ => rfl | ⟨3, _⟩ => rfl)
  have il : ∀ k : Fin 64, lidx_main_v0 (ix4 b h s t) k = ix4 b h s k := fun k => funext fun a => Fin.ext (by
    match a with | ⟨0, _⟩ => rfl | ⟨1, _⟩ => rfl | ⟨2, _⟩ => rfl | ⟨3, _⟩ => rfl)
  have ir : ∀ k : Fin 64, ridx_main_v0 (ix4 b h s t) k = ix4 b h t k := fun k => funext fun a => Fin.ext (by
    match a with | ⟨0, _⟩ => rfl | ⟨1, _⟩ => rfl | ⟨2, _⟩ => rfl | ⟨3, _⟩ => rfl)
  rw [val_main_v6_apply, val_main_call0_v0_apply, val_main_v5_apply, val_main_v4_apply, val_main_c_apply,
    val_main_call0_v1_apply, val_main_cst_0_apply, val_main_v3_apply, val_main_v0_apply, val_main_v2_apply,
    val_main_v1_apply, val_main_cst_apply, i0]
  simp only [il, ir]
  show Scalar.select _ fill (Ideal.div (∑ k : Fin 64, (x0 (ix4 b h s k) : EReal) * (x1 (ix4 b h t k) : EReal))
      (Ideal.sqrt (Ideal.ofBits .f32 0x42800000#32))) = _
  rw [← scale_eq]
  rfl

/-- The row maximum the reference subtracts is, at (b, h, s), the maximum of query row (b, h, s)'s scores. -/
theorem rowmax_ref (b : Fin 4) (h : Fin 16) (s : Fin 2048) :
    val_main_v9 (F := Ideal) x0 x1 x3 (ix3 b h s) = rowMax floor (rowScores x0 x1 x3 b h s) := by
  rw [val_main_v9_apply, val_main_v8_apply, val_main_cst_2_apply]
  unfold val_main_v7
  rw [host_lastmax4_apply]
  rw [show (fun k : Fin 2048 => val_main_v6 (F := Ideal) x0 x1 x3 (ix4 b h s k)) = rowScores x0 x1 x3 b h s from
    funext fun k => masked_ref x0 x1 x3 b h s k]
  exact max_init_rowMax floor _

/-- The exponentials the reference sums are, at (b, h, s, t), exp of score t less the row's maximum. -/
theorem exp_ref (b : Fin 4) (h : Fin 16) (s t : Fin 2048) :
    val_main_v13 (F := Ideal) x0 x1 x3 (ix4 b h s t)
      = Ideal.exp (rowScores x0 x1 x3 b h s t - rowMax floor (rowScores x0 x1 x3 b h s)) := by
  have i1 : idx_main_v10 (idx_main_v11 (ix4 b h s t)) = ix3 b h s := funext fun a => Fin.ext (by
    match a with | ⟨0, _⟩ => rfl | ⟨1, _⟩ => rfl | ⟨2, _⟩ => rfl)
  rw [val_main_v13_apply, val_main_v12_apply, masked_ref, val_main_v11_apply, val_main_v10_apply, i1, rowmax_ref]
  rfl

/-- The reference's weights array is the attention weights, entry by entry. -/
theorem weights_ref (b : Fin 4) (h : Fin 16) (s t : Fin 2048) :
    val_main_v17 (F := Ideal) x0 x1 x3 (ix4 b h s t) = weights floor (rowScores x0 x1 x3 b h s) t := by
  have i1 : idx_main_v15 (idx_main_v16 (ix4 b h s t)) = ix3 b h s := funext fun a => Fin.ext (by
    match a with | ⟨0, _⟩ => rfl | ⟨1, _⟩ => rfl | ⟨2, _⟩ => rfl)
  have i2 : ∀ k : Fin 2048, idx_main_v14 (ix3 b h s) k = ix4 b h s k := fun k => funext fun a => Fin.ext (by
    match a with | ⟨0, _⟩ => rfl | ⟨1, _⟩ => rfl | ⟨2, _⟩ => rfl | ⟨3, _⟩ => rfl)
  rw [val_main_v17_apply, exp_ref, val_main_v16_apply, val_main_v15_apply, i1, val_main_v14_apply, val_main_cst_3_apply]
  simp only [i2, exp_ref]
  show Ideal.div _ (Ideal.ofBits .f32 0x00000000#32 + _) = _
  rw [Ideal.ofBits_zero_f32, zero_add]
  rfl

/-- The reference's output array is the attention output, entry by entry. -/
theorem output_ref (b : Fin 4) (h : Fin 16) (s : Fin 2048) (e : Fin 64) :
    val_main_v18 (F := Ideal) x0 x1 x2 x3 (ix4 b h s e)
      = attend floor (rowScores x0 x1 x3 b h s) (fun u : Fin 2048 => x2 (ix4 b h u e)) := by
  have il : ∀ k : Fin 2048, lidx_main_v18 (ix4 b h s e) k = ix4 b h s k := fun k => funext fun a => Fin.ext (by
    match a with | ⟨0, _⟩ => rfl | ⟨1, _⟩ => rfl | ⟨2, _⟩ => rfl | ⟨3, _⟩ => rfl)
  have ir : ∀ k : Fin 2048, ridx_main_v18 (ix4 b h s e) k = ix4 b h k e := fun k => funext fun a => Fin.ext (by
    match a with | ⟨0, _⟩ => rfl | ⟨1, _⟩ => rfl | ⟨2, _⟩ => rfl | ⟨3, _⟩ => rfl)
  rw [val_main_v18_apply]
  simp only [il, ir, weights_ref]
  rfl

/-- The reference's weights array IS the attention weights of the arguments. -/
theorem weights_array : val_main_v17 (F := Ideal) x0 x1 x3 = attnWeights x0 x1 x3 := by
  funext i
  obtain ⟨b, h, s, t, rfl⟩ : ∃ (b : Fin 4) (h : Fin 16) (s t : Fin 2048), i = ix4 b h s t := ⟨i 0, i 1, i 2, i 3, eq_ix4 i⟩
  exact weights_ref x0 x1 x3 b h s t

/-- The reference's output array IS the attention output of the arguments. -/
theorem output_array : val_main_v18 (F := Ideal) x0 x1 x2 x3 = attnOut x0 x1 x2 x3 := by
  funext i
  obtain ⟨b, h, s, e, rfl⟩ : ∃ (b : Fin 4) (h : Fin 16) (s : Fin 2048) (e : Fin 64), i = ix4 b h s e := ⟨i 0, i 1, i 2, i 3, eq_ix4 i⟩
  exact output_ref x0 x1 x2 x3 b h s e

end Cert.ReferenceIdeal.Hand

end
-- ==== Proof.lean ====
/-
  Masked scaled dot-product attention with its weights returned: a kernel that computes, per (b, query tile, h),
  softmax(q·kᵀ·⅛ masked with −10⁹)·v for a tile of 512 query rows against all 2048 keys, set against a reference that
  divides by √64 and calls the library softmax.

  On the extended reals both programs compute the same two functions of the argument arrays (Proof/AttentionSpec.lean):
  the kernel's result arrays are those functions block by block (Proof/BlockValue.lean, Proof/FinalArrays.lean, over the
  generated frame run), and the reference's composed term is those functions entry by entry (Proof/ReferenceValue.lean,
  over the generated run). The one law that joins them is x·⅛ = x / √64 for every extended real, which asks no
  finiteness; the precondition is not opened. The ideal pass rewrote nothing, so the idealization claim is trivial.
-/
import proofs.«144681_j22196390986015_2_alg».proof.Defs
import proofs.«144681_j22196390986015_2_alg».proof.Proof.Gen.Kernel
import proofs.«144681_j22196390986015_2_alg».proof.Proof.Gen.Kernel.Skeleton
import proofs.«144681_j22196390986015_2_alg».proof.Proof.Gen.Kernel.Launch
import proofs.«144681_j22196390986015_2_alg».proof.Proof.Gen.Kernel.Points
import proofs.«144681_j22196390986015_2_alg».proof.Proof.Gen.Kernel.Frame
import proofs.«144681_j22196390986015_2_alg».proof.Proof.Gen.KernelIdeal
import proofs.«144681_j22196390986015_2_alg».proof.Proof.Gen.KernelIdeal.Skeleton
import proofs.«144681_j22196390986015_2_alg».proof.Proof.Gen.KernelIdeal.Launch
import proofs.«144681_j22196390986015_2_alg».proof.Proof.Gen.KernelIdeal.Points
import proofs.«144681_j22196390986015_2_alg».proof.Proof.Gen.KernelIdeal.Frame
import proofs.«144681_j22196390986015_2_alg».proof.Proof.Gen.ReferenceIdeal
import proofs.«144681_j22196390986015_2_alg».proof.Proof.Gen.Pre_finite_inputs
import proofs.«144681_j22196390986015_2_alg».proof.Proof.Gen.KernelIdeal.Value
import proofs.«144681_j22196390986015_2_alg».proof.Proof.Gen.ReferenceIdeal.Run
import proofs.«144681_j22196390986015_2_alg».proof.Proof.Gen.ReferenceIdeal.Read
import proofs.«144681_j22196390986015_2_alg».proof.Proof.FinalArrays
import proofs.«144681_j22196390986015_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The idealized reference runs and leaves its arguments as they were: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- On the extended reals the kernel's output and weights arrays end at the attention output and the attention weights
    of the arguments, and so do the reference's, from arguments that agree. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v18_eq _ _ _ _).trans ?_
    refine (Cert.ReferenceIdeal.Hand.output_array _ _ _ _).trans ?_
    rw [(hagree c).1, (hagree c).2.1, (hagree c).2.2.1, (hagree c).2.2.2]
  · refine (Cert.ReferenceIdeal.Read.val_main_v17_eq _ _ _).trans ?_
    refine (Cert.ReferenceIdeal.Hand.weights_array _ _ _).trans ?_
    rw [(hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
